-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8x2048x2048 .f32) (main_arg1 : FVec F S2048x2048 .f32) (main_arg2 : FVec F S2048 .f32) (main_arg3 : FVec F S2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8x2048x2048 : Shape := ⟨3, ![8, 2048, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩
abbrev S256x2048 : Shape := ⟨2, ![256, 2048]⟩
abbrev S256 : Shape := ⟨1, ![256]⟩
abbrev S256x1 : Shape := ⟨2, ![256, 1]⟩

abbrev nBuf : Space → Nat
  | .hbm => 26
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S16384x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .bf16⟩
  | .hbm, ⟨24, _⟩ => ⟨S16384x2048, .f32⟩
  | .hbm, ⟨25, _⟩ => ⟨S8x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x2048x2048_S16384x2048 : S8x2048x2048.ShapeCasts S16384x2048
  shapeCasts_S2048_S1x2048 : S2048.ShapeCasts S1x2048
  reducesTo_S2048x2048_S_d0_1 : S2048x2048.ReducesTo [0, 1] S_
  h_S_ : 0 < S_.numel
  bcast_S_S2048x2048 : S_.BroadcastsInDim S2048x2048 (![] : Fin 0 → Fin S2048x2048.rank)
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S8x2048x2048 : S16384x2048.ShapeCasts S8x2048x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S16384x2048.size a
  hwx0_4 : ∀ i : grid0.Coords, EltTy.bits .f32 = 32 ∨ (Rect.block (s := S16384x2048) S256x2048.size (cc0_transform_4 i) (hinb0_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S1x1x2048, .f32⟩
  | .hbm, ⟨28, _⟩ => ⟨S8x2048x2048, .f32⟩
  | .hbm, ⟨29, _⟩ => ⟨S8x2048x2048, .f32⟩
  | .hbm, ⟨30, _⟩ => ⟨S1x1x2048, .f32⟩
  | .hbm, ⟨31, _⟩ => ⟨S8x2048x2048, .f32⟩
  | .hbm, ⟨32, _⟩ => ⟨S8x2048x2048, .f32⟩
  | .hbm, ⟨33, _⟩ => ⟨S2048x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  reducesTo_S2048x2048_S_d0_1 : S2048x2048.ReducesTo [0, 1] S_
  bcast_S_S2048x2048 : S_.BroadcastsInDim S2048x2048 (![] : Fin 0 → Fin S2048x2048.rank)
  dot_S8x2048x2048_S2048x2048_S8x2048x2048_2_0_01_1_n_n_wf : DotDims.WF S8x2048x2048 S2048x2048 S8x2048x2048 [2] [0] [0, 1] [1] [] []

variable [Facts₀]

def dot_S8x2048x2048_S2048x2048_S8x2048x2048_2_0_01_1_n_n : DotDims S8x2048x2048 S2048x2048 S8x2048x2048 where
  lhsContracting := [2]
  rhsContracting := [0]
  lhsNonContracting := [0, 1]
  rhsNonContracting := [1]
  lhsBatch := []
  rhsBatch := []
  wf := dot_S8x2048x2048_S2048x2048_S8x2048x2048_2_0_01_1_n_n_wf

class Facts : Prop extends Facts₀ where

variable [Facts]
-- ==== Proof.Spec.lean ====
/-
  Layer normalisation of a row followed by a product with a fixed matrix: the function both programs compute.

  For a row r of 2048 extended reals, with gain g and bias b:
    mean r      = (Σ_k r_k) / 2048
    centred r k = r_k − mean r
    variance r  = (Σ_k (centred r k)²) / 2048
    invStd r    = (variance r + ε)^(−1/2),     ε the f32 nearest 10⁻⁵
    normed r k  = centred r k · invStd r · g_k + b_k
  and against a column q of a matrix, entry r g b q = Σ_k normed r k · q_k.
  The output array has, at (batch, position, o), the entry of the input's row (batch, position) against column o.

  Also here: the one law that joins the two programs. The reference replaces the quantised matrix Q by (Q − W) + W
  (a straight-through estimator); when W is a real number and Q lies between two real bounds, that is Q again.
-/
import Idealize.ShloMosaic.PureOps.Ideal
import Idealize.ShloMosaic.PureOps.Ideal.Laws
import Idealize.ShloMosaic.Lib.ValueIdx

noncomputable section

namespace Cert.NormedProduct

open Idealize.ShloMosaic Idealize.ShloMosaic.ValueIdx

/-- The mean of a row: its sum divided by 2048. -/
def mean (r : Fin 2048 → EReal) : EReal := Ideal.div (∑ k : Fin 2048, r k) (Ideal.ofBits .f32 0x45000000#32)

/-- A row's entry with the row's mean taken off. -/
def centred (r : Fin 2048 → EReal) (k : Fin 2048) : EReal := r k - mean r

/-- The (biased) variance of a row: the mean of the squares of its centred entries. -/
def variance (r : Fin 2048 → EReal) : EReal :=
  Ideal.div (∑ k : Fin 2048, centred r k * centred r k) (Ideal.ofBits .f32 0x45000000#32)

/-- The reciprocal standard deviation, regularised by ε. -/
def invStd (r : Fin 2048 → EReal) : EReal := Ideal.rsqrt (variance r + Ideal.ofBits .f32 0x3727C5AC#32)

/-- The normalised row, scaled by the gain and shifted by the bias. -/
def normed (r g b : Fin 2048 → EReal) (k : Fin 2048) : EReal := centred r k * invStd r * g k + b k

/-- The normalised row against one column of the matrix. -/
def entry (r g b q : Fin 2048 → EReal) : EReal := ∑ k : Fin 2048, normed r g b k * q k

/-- The whole result: at (batch, position, o), row (batch, position) of x normalised, against column o of the matrix. -/
def result (x : (⟨3, ![8, 2048, 2048]⟩ : Shape).Idx → EReal) (q : (⟨2, ![2048, 2048]⟩ : Shape).Idx → EReal)
    (g b : (⟨1, ![2048]⟩ : Shape).Idx → EReal) : (⟨3, ![8, 2048, 2048]⟩ : Shape).Idx → EReal := fun i =>
  entry (fun k => x (ix3 (n0 := 8) (n1 := 2048) (n2 := 2048) ⟨(i 0).val, (i 0).isLt⟩ ⟨(i 1).val, (i 1).isLt⟩ k))
    (fun k => g (ix1 k)) (fun k => b (ix1 k)) (fun k => q (ix2 (n0 := 2048) (n1 := 2048) k ⟨(i 2).val, (i 2).isLt⟩))

/-- The same with batch and position merged into one axis of 16384 rows, gain and bias as 1 × 2048 rows: at (r, o), row r
    of X normalised, against column o of the matrix. This is the array the kernel's region writes, block by block. -/
def rowsResult (X : (⟨2, ![16384, 2048]⟩ : Shape).Idx → EReal) (q : (⟨2, ![2048, 2048]⟩ : Shape).Idx → EReal)
    (g b : (⟨2, ![1, 2048]⟩ : Shape).Idx → EReal) : (⟨2, ![16384, 2048]⟩ : Shape).Idx → EReal := fun i =>
  entry (fun k => X (ix2 (n0 := 16384) (n1 := 2048) ⟨(i 0).val, (i 0).isLt⟩ k))
    (fun k => g (ix2 (0 : Fin 1) k)) (fun k => b (ix2 (0 : Fin 1) k))
    (fun k => q (ix2 (n0 := 2048) (n1 := 2048) k ⟨(i 1).val, (i 1).isLt⟩))

/-- A value clamped between two real bounds is a real number. -/
theorem clamp_real (lo hi : ℝ) (z : EReal) : ∃ v : ℝ, min (hi : EReal) (max (lo : EReal) z) = (v : EReal) := by
  induction z using EReal.rec with
  | bot => exact ⟨min hi lo, by rw [max_eq_left bot_le]; exact (Monotone.map_min EReal.coe_strictMono.monotone).symm⟩
  | coe v => exact ⟨min hi (max lo v), by
      rw [← Monotone.map_max EReal.coe_strictMono.monotone]; exact (Monotone.map_min EReal.coe_strictMono.monotone).symm⟩
  | top => exact ⟨hi, by rw [max_eq_right le_top, min_eq_left le_top]⟩

/-- Taking a real number off a real number and adding it back changes nothing, also on the extended reals. -/
theorem sub_add_real (q w : ℝ) : ((q : EReal) - (w : EReal)) + (w : EReal) = (q : EReal) := by
  rw [← EReal.coe_sub, ← EReal.coe_add, sub_add_cancel]

/-- The f32 pattern 0xBF800000 denotes −1. -/
theorem neg_one_eq : Ideal.ofBits .f32 0xBF800000#32 = ((-1 : ℝ) : EReal) := by
  simp [Ideal.ofBits, Ideal.ieee]
  norm_cast
  norm_num

/-- The f32 pattern 0x3F800000 denotes 1. -/
theorem one_eq : Ideal.ofBits .f32 0x3F800000#32 = ((1 : ℝ) : EReal) := by
  simp [Ideal.ofBits, Ideal.ieee]
  norm_cast
  norm_num

/-- The straight-through estimator is the identity on a clamped value: with Q = min 1 (max (−1) z) and W real,
    (Q − W) + W = Q. -/
theorem clamp_sub_add (z w : EReal) (hw : ∃ v : ℝ, w = (v : EReal)) :
    (min (Ideal.ofBits .f32 0x3F800000#32) (max (Ideal.ofBits .f32 0xBF800000#32) z) - w) + w
      = min (Ideal.ofBits .f32 0x3F800000#32) (max (Ideal.ofBits .f32 0xBF800000#32) z) := by
  obtain ⟨v, rfl⟩ := hw
  rw [one_eq, neg_one_eq]
  obtain ⟨q, hq⟩ := clamp_real (-1) 1 z
  rw [hq]
  exact sub_add_real q v

end Cert.NormedProduct

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.Body.lean ====
/-
  What the kernel's body computes on one block, read entry by entry.

  The body takes a block of 256 rows of the input (each of 2048 entries), the gain and the bias as 1 × 2048 rows, and the
  whole 2048 × 2048 matrix. For each row it takes the mean by a sum along the row, centres the row, takes the variance
  by a second sum, scales by (variance + ε)^(−1/2), applies gain and bias, and multiplies by the matrix from a zero
  accumulator. Read at (p, o) of the block this is the specification's entry of row p against column o: the row sums
  are sums over the row's 2048 coordinates, the kept-axis casts and broadcasts repeat a row's statistic along the row,
  the rounding to the narrower format is the identity on exact values, and the matrix product from zero is the plain sum
  over the contracted coordinate.
-/
import proofs.«166564_j22050362097970_2_alg».proof.Proof.Gen.KernelIdeal.Skeleton
import proofs.«166564_j22050362097970_2_alg».proof.Proof.Spec
import proofs.«166564_j22050362097970_2_alg».proof.Proof.LibColumnBroadcast
import proofs.«166564_j22050362097970_2_alg».proof.Proof.LibColumnCast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Facts₀ Idealize.ShloMosaic Idealize.ShloMosaic.ValueIdx
open Cert.NormedProduct

/-- The matrix-product record of the body, under a short name. -/
abbrev D := dot_S256x2048_S2048x2048_S256x2048_1_0_0_1_n_n

/-- A sum along the rows of a 256 × 2048 block, read at row p: the sum of the row's 2048 entries. -/
theorem rowSum_apply (v : FVec Ideal S256x2048 .f32) (p : Fin 256) :
    multiReduction (F := Ideal) .add [1] S256 v 0x00000000#32 reduces_S256x2048_S256 (.inl rfl) rfl (ix1 p)
      = ∑ k : Fin 2048, v (ix2 p k) := by
  refine (Ideal.multiReduction_add_single v 0x00000000#32 reduces_S256x2048_S256 (.inl rfl) rfl (ix1 p)).trans ?_
  exact Finset.sum_congr rfl fun k _ => congrArg v (funext fun a => Fin.ext (by
    match a with
    | ⟨0, _⟩ => rfl
    | ⟨1, _⟩ => rfl))

/-- The column of row means (a row's sum, kept as a 256 × 1 column, divided by 2048). -/
def meanCol (v : FVec Ideal S256x2048 .f32) : FVec Ideal S256x1 .f32 :=
  divf (shapeCast S256x1 (multiReduction (F := Ideal) .add [1] S256 v 0x00000000#32 reduces_S256x2048_S256 (.inl rfl) rfl)
    shapeCasts_S256_S256x1) (broadcast S256x1 (Scalar.ofBits (F := Ideal) .f32 0x45000000#32))

theorem meanCol_apply (v : FVec Ideal S256x2048 .f32) (p : Fin 256) (u : Fin 1) :
    meanCol v (ix2 p u) = Ideal.div (∑ k : Fin 2048, v (ix2 p k)) (Ideal.ofBits .f32 0x45000000#32) := by
  unfold meanCol
  show Ideal.div (shapeCast S256x1 _ shapeCasts_S256_S256x1 (ix2 p u)) (Ideal.ofBits .f32 0x45000000#32) = _
  rw [Cert.LibColumnCast.shapeCast_a_a1_apply, rowSum_apply]

/-- The block with each row's mean taken off. -/
def cen (v : FVec Ideal S256x2048 .f32) : FVec Ideal S256x2048 .f32 :=
  subf v (broadcastTo S256x2048 (meanCol v) broadcasts_S256x1_S256x2048)

theorem cen_apply (v : FVec Ideal S256x2048 .f32) (p : Fin 256) (k : Fin 2048) :
    cen v (ix2 p k) = centred (fun k => v (ix2 p k)) k := by
  unfold cen centred mean
  show v (ix2 p k) - broadcastTo S256x2048 (meanCol v) broadcasts_S256x1_S256x2048 (ix2 p k) = _
  rw [Cert.LibColumnBroadcast.broadcastTo_a1_ab_apply, meanCol_apply]

/-- The column of reciprocal standard deviations. -/
def inv (v : FVec Ideal S256x2048 .f32) : FVec Ideal S256x1 .f32 :=
  rsqrt (addf (meanCol (mulf (cen v) (cen v))) (broadcast S256x1 (Scalar.ofBits (F := Ideal) .f32 0x3727C5AC#32)))

theorem inv_apply (v : FVec Ideal S256x2048 .f32) (p : Fin 256) (u : Fin 1) :
    inv v (ix2 p u) = invStd (fun k => v (ix2 p k)) := by
  unfold inv invStd variance
  show Ideal.rsqrt (meanCol (mulf (cen v) (cen v)) (ix2 p u) + Ideal.ofBits .f32 0x3727C5AC#32) = _
  rw [meanCol_apply]
  simp only [mulf_apply, cen_apply]

/-- The normalised block with gain and bias applied. -/
def xn (v : FVec Ideal S256x2048 .f32) (g b : FVec Ideal S1x2048 .f32) : FVec Ideal S256x2048 .f32 :=
  addf (mulf (mulf (cen v) (broadcastTo S256x2048 (inv v) broadcasts_S256x1_S256x2048))
    (broadcastTo S256x2048 g broadcasts_S1x2048_S256x2048)) (broadcastTo S256x2048 b broadcasts_S1x2048_S256x2048)

theorem xn_apply (v : FVec Ideal S256x2048 .f32) (g b : FVec Ideal S1x2048 .f32) (p : Fin 256) (k : Fin 2048) :
    xn v g b (ix2 p k)
      = normed (fun k => v (ix2 p k)) (fun k => g (ix2 (0 : Fin 1) k)) (fun k => b (ix2 (0 : Fin 1) k)) k := by
  unfold xn normed
  show cen v (ix2 p k) * broadcastTo S256x2048 (inv v) broadcasts_S256x1_S256x2048 (ix2 p k)
      * broadcastTo S256x2048 g broadcasts_S1x2048_S256x2048 (ix2 p k)
      + broadcastTo S256x2048 b broadcasts_S1x2048_S256x2048 (ix2 p k) = _
  rw [Cert.LibColumnBroadcast.broadcastTo_a1_ab_apply, broadcastTo_1b_ab_apply, broadcastTo_1b_ab_apply, cen_apply, inv_apply]

/-- Where the product's operands are read for the output entry i and the contracted coordinate q: the left operand at
    (i's row, q), the right operand at (q, i's column). -/
theorem lhs_row (i : S256x2048.Idx) (q : D.contr.Idx) : (D.lhsIdx i q 0).val = (i 0).val := by
  unfold DotDims.lhsIdx
  rw [dif_neg (show ¬(0 : Fin S256x2048.rank) ∈ D.lhsBatch by decide), dif_pos (show (0 : Fin S256x2048.rank) ∈ D.lhsNonContracting by decide)]
  rfl
theorem lhs_col (i : S256x2048.Idx) (q : D.contr.Idx) : (D.lhsIdx i q 1).val = (q ⟨0, by decide⟩).val :=
  D.lhsIdx_val_of_single rfl i q
theorem rhs_row (i : S256x2048.Idx) (q : D.contr.Idx) : (D.rhsIdx i q 0).val = (q ⟨0, by decide⟩).val :=
  D.rhsIdx_val_of_single rfl i q
theorem rhs_col (i : S256x2048.Idx) (q : D.contr.Idx) : (D.rhsIdx i q 1).val = (i 1).val := by
  unfold DotDims.rhsIdx
  rw [dif_neg (show ¬(1 : Fin S2048x2048.rank) ∈ D.rhsBatch by decide), dif_pos (show (1 : Fin S2048x2048.rank) ∈ D.rhsNonContracting by decide)]
  rfl

/-- The body's matrix product from a zero accumulator, read at (p, o): the sum over the contracted coordinate. -/
theorem matmul_apply (A : FVec Ideal S256x2048 .bf16) (B : FVec Ideal S2048x2048 .bf16) (p : Fin 256) (o : Fin 2048) :
    matmul (F := Ideal) D none A B (constant S256x2048 .f32 0x00000000#32) (ix2 p o)
      = ∑ k : Fin 2048, A (ix2 p k) * B (ix2 k o) := by
  refine (Ideal.matmul_constant_zero_apply D none A B (ix2 p o)).trans ?_
  rw [← Equiv.sum_comp (contrEquiv1 D 2048 rfl rfl).symm]
  refine Finset.sum_congr rfl fun k _ => ?_
  have hk := contrEquiv1_symm_val D 2048 rfl rfl k
  have el : D.lhsIdx (ix2 p o) ((contrEquiv1 D 2048 rfl rfl).symm k) = ix2 p k := funext fun a => Fin.ext (by
    match a with
    | ⟨0, _⟩ => exact lhs_row _ _
    | ⟨1, _⟩ => exact (lhs_col _ _).trans hk)
  have er : D.rhsIdx (ix2 p o) ((contrEquiv1 D 2048 rfl rfl).symm k) = ix2 k o := funext fun a => Fin.ext (by
    match a with
    | ⟨0, _⟩ => exact (rhs_row _ _).trans hk
    | ⟨1, _⟩ => exact rhs_col _ _)
  rw [el, er]

/-- The body's stored value is the product of the normalised block with the matrix. -/
theorem pay_eq (x0 : FVec Ideal S256x2048 .f32) (g b : FVec Ideal S1x2048 .f32) (w : FVec Ideal S2048x2048 .bf16) :
    Gen.k0_pay1 (F := Ideal) x0 g b w
      = matmul (F := Ideal) D none (truncf .bf16 (xn x0 g b) bitsLt_bf16_f32) w (constant S256x2048 .f32 0x00000000#32) := by
  have e : Gen.k0_pay1 (F := Ideal) x0 g b w
      = matmul (F := Ideal) D none (truncf .bf16 (xn (shapeCast S256x2048 x0 shapeCasts_S256x2048_S256x2048)
          (shapeCast S1x2048 g shapeCasts_S1x2048_S1x2048) (shapeCast S1x2048 b shapeCasts_S1x2048_S1x2048)) bitsLt_bf16_f32)
          (shapeCast S2048x2048 w shapeCasts_S2048x2048_S2048x2048) (constant S256x2048 .f32 0x00000000#32) := rfl
  rw [e, shapeCast_self, shapeCast_self, shapeCast_self, shapeCast_self]

/-- THE BODY AT AN ENTRY: at (p, o) of the block, the specification's entry of row p against column o. -/
theorem pay_apply (x0 : FVec Ideal S256x2048 .f32) (g b : FVec Ideal S1x2048 .f32) (w : FVec Ideal S2048x2048 .bf16)
    (p : Fin 256) (o : Fin 2048) :
    Gen.k0_pay1 (F := Ideal) x0 g b w (ix2 p o)
      = entry (fun k => x0 (ix2 p k)) (fun k => g (ix2 (0 : Fin 1) k)) (fun k => b (ix2 (0 : Fin 1) k)) (fun k => w (ix2 k o)) := by
  rw [pay_eq, matmul_apply]
  unfold entry
  refine Finset.sum_congr rfl fun k _ => ?_
  show xn x0 g b (ix2 p k) * w (ix2 k o) = _
  rw [xn_apply]

end Cert.KernelIdeal.Body

end
-- ==== Proof.Blocks.lean ====
/-
  From the blocks the kernel writes to the whole array.

  The region runs the body at 64 grid points. At point t the input window holds rows 256·t … 256·t + 255 of the
  16384 × 2048 input, the gain, bias and matrix windows hold their whole arrays, and the output window's block is written
  back to rows 256·t … 256·t + 255 of the output. So what point t writes back is the block of ONE function of the arrays
  the region finds: each output row is its input row normalised, against the matrix. The 64 blocks tile the output
  (row r lies in the block of point r / 256), hence the output array ends holding that function everywhere.
-/
import proofs.«166564_j22050362097970_2_alg».proof.Proof.Gen.KernelIdeal.Frame
import proofs.«166564_j22050362097970_2_alg».proof.Proof.Body
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.NormedProduct
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The body at an entry, with each loaded block identified with the array it is a block of: if row p of the input block is
    row i₀ of X, and the other three blocks are their whole arrays, the body's entry (p, o) is the rows form at i. -/
theorem pay_rows (x0 : FVec Ideal S256x2048 .f32) (g b : FVec Ideal S1x2048 .f32) (w : FVec Ideal S2048x2048 .bf16)
    (X : S16384x2048.Idx → EReal) (Q : S2048x2048.Idx → EReal) (G B : S1x2048.Idx → EReal)
    (p : Fin 256) (o : Fin 2048) (i : S16384x2048.Idx)
    (hx : ∀ k : Fin 2048, x0 (ix2 p k) = X (ix2 (n0 := 16384) (n1 := 2048) ⟨(i 0).val, (i 0).isLt⟩ k))
    (hg : ∀ k : Fin 2048, g (ix2 (0 : Fin 1) k) = G (ix2 (0 : Fin 1) k))
    (hb : ∀ k : Fin 2048, b (ix2 (0 : Fin 1) k) = B (ix2 (0 : Fin 1) k))
    (hw : ∀ k : Fin 2048, w (ix2 k o) = Q (ix2 (n0 := 2048) (n1 := 2048) k ⟨(i 1).val, (i 1).isLt⟩)) :
    k0_pay1 (F := Ideal) x0 g b w (ix2 p o) = rowsResult X Q G B i := by
  rw [Cert.KernelIdeal.Body.pay_apply]
  unfold rowsResult
  simp only [hx, hg, hb, hw]

/-- The printed index maps over the grid: the input and output windows move down one block of rows per point, the other
    three windows stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The input window's block at point t is rows 256·t … 256·t + 255 of the array the region finds. -/
theorem blk0_apply (c : Dev nD) (t : Fin cfg0.N) (y : S256x2048.Idx) (i : S16384x2048.Idx)
    (h0 : (i 0).val = t.val * 256 + (y 0).val) (h1 : (i 1).val = (y 1).val) :
    (iblk m c 0 t : S256x2048.Idx → EReal) y = (V m c main_v0 : S16384x2048.Idx → EReal) i := by
  obtain ⟨e0, e1, -⟩ := idx_facts t
  unfold iblk
  rw [View.read_apply]
  show (V m c main_v0 : S16384x2048.Idx → EReal) _ = (V m c main_v0 : S16384x2048.Idx → EReal) i
  refine congrArg (V m c main_v0 : S16384x2048.Idx → EReal) ?_
  funext a
  apply Fin.ext
  match a with
  | ⟨0, _⟩ => show win0_0.index t (0 : Fin 2) * 256 + 1 * (y 0).val = (i 0).val; rw [e0, h0]; omega
  | ⟨1, _⟩ => show win0_0.index t (1 : Fin 2) * 2048 + 1 * (y 1).val = (i 1).val; rw [e1, h1]; omega

/-- The matrix window's block at every point is the whole matrix. -/
theorem blk1_apply (c : Dev nD) (t : Fin cfg0.N) (y : S2048x2048.Idx) :
    (iblk m c 1 t : S2048x2048.Idx → EReal) y = (V m c main_v10 : S2048x2048.Idx → EReal) y := by
  obtain ⟨-, -, e0, e1, -⟩ := idx_facts t
  unfold iblk
  rw [View.read_apply]
  show (V m c main_v10 : S2048x2048.Idx → EReal) _ = (V m c main_v10 : S2048x2048.Idx → EReal) y
  refine congrArg (V m c main_v10 : S2048x2048.Idx → EReal) ?_
  funext a
  apply Fin.ext
  match a with
  | ⟨0, _⟩ => show win0_1.index t (0 : Fin 2) * 2048 + 1 * (y 0).val = (y 0).val; rw [e0]; omega
  | ⟨1, _⟩ => show win0_1.index t (1 : Fin 2) * 2048 + 1 * (y 1).val = (y 1).val; rw [e1]; omega

/-- The gain window's block at every point is the whole 1 × 2048 gain row. -/
theorem blk2_apply (c : Dev nD) (t : Fin cfg0.N) (y : S1x2048.Idx) :
    (iblk m c 2 t : S1x2048.Idx → EReal) y = (V m c main_v1 : S1x2048.Idx → EReal) y := by
  obtain ⟨-, -, -, -, e0, e1, -⟩ := idx_facts t
  unfold iblk
  rw [View.read_apply]
  show (V m c main_v1 : S1x2048.Idx → EReal) _ = (V m c main_v1 : S1x2048.Idx → EReal) y
  refine congrArg (V m c main_v1 : S1x2048.Idx → EReal) ?_
  funext a
  apply Fin.ext
  match a with
  | ⟨0, _⟩ => show win0_2.index t (0 : Fin 2) * 1 + 1 * (y 0).val = (y 0).val; rw [e0]; omega
  | ⟨1, _⟩ => show win0_2.index t (1 : Fin 2) * 2048 + 1 * (y 1).val = (y 1).val; rw [e1]; omega

/-- The bias window's block at every point is the whole 1 × 2048 bias row. -/
theorem blk3_apply (c : Dev nD) (t : Fin cfg0.N) (y : S1x2048.Idx) :
    (iblk m c 3 t : S1x2048.Idx → EReal) y = (V m c main_v2 : S1x2048.Idx → EReal) y := by
  obtain ⟨-, -, -, -, -, -, e0, e1, -⟩ := idx_facts t
  unfold iblk
  rw [View.read_apply]
  show (V m c main_v2 : S1x2048.Idx → EReal) _ = (V m c main_v2 : S1x2048.Idx → EReal) y
  refine congrArg (V m c main_v2 : S1x2048.Idx → EReal) ?_
  funext a
  apply Fin.ext
  match a with
  | ⟨0, _⟩ => show win0_3.index t (0 : Fin 2) * 1 + 1 * (y 0).val = (y 0).val; rw [e0]; omega
  | ⟨1, _⟩ => show win0_3.index t (1 : Fin 2) * 2048 + 1 * (y 1).val = (y 1).val; rw [e1]; omega

/-- WHAT POINT t WRITES BACK is block t of the rows form of the arrays the region finds. -/
theorem flushed_eq (c : Dev nD) (t : Fin cfg0.N) :
    (dats m 0 c).flushed 4 t = ((cfg0.win 4).blk t).view.read (Elt Ideal)
      (rowsResult (V m c main_v0) (V m c main_v10) (V m c main_v1) (V m c main_v2)) := by
  show (cfg0.win 4).cut (grid0.coords t) ((dats m 0 c).after 4 t) = _
  rw [after0_4]
  unfold out0_4
  rw [View.canon_unit_zero hz]
  simp only [View.ld_unit_zero (S := S256x2048) hz, View.ld_unit_zero (S := S1x2048) hz, View.ld_unit_zero (S := S2048x2048) hz]
  obtain ⟨-, -, -, -, -, -, -, -, e8, e9⟩ := idx_facts t
  funext j
  obtain ⟨p, o, rfl⟩ : ∃ (p : Fin 256) (o : Fin 2048), j = ix2 p o := ⟨j 0, j 1, eq_ix2 j⟩
  show k0_pay1 (F := Ideal) (iblk m c 0 t) (iblk m c 2 t) (iblk m c 3 t) (iblk m c 1 t) (ix2 p o)
    = rowsResult (V m c main_v0) (V m c main_v10) (V m c main_v1) (V m c main_v2) (((cfg0.win 4).blk t).view.emb (ix2 p o))
  refine pay_rows (iblk m c 0 t) (iblk m c 2 t) (iblk m c 3 t) (iblk m c 1 t)
    (V m c main_v0) (V m c main_v10) (V m c main_v1) (V m c main_v2) p o _ (fun k => ?_) (fun k => ?_) (fun k => ?_) (fun k => ?_)
  · refine blk0_apply m c t (ix2 p k) _ ?_ rfl
    show win0_4.index t (0 : Fin 2) * 256 + 1 * p.val = t.val * 256 + p.val
    rw [e8]; omega
  · exact blk2_apply m c t _
  · exact blk3_apply m c t _
  · refine (blk1_apply m c t (ix2 k o)).trans ?_
    refine congrArg (V m c main_v10 : S2048x2048.Idx → EReal) ?_
    funext a
    apply Fin.ext
    match a with
    | ⟨0, _⟩ => rfl
    | ⟨1, _⟩ => show o.val = win0_4.index t (1 : Fin 2) * 2048 + 1 * o.val; rw [e9]; omega

/-- An index of the output array is in point t's block iff each coordinate is in the block's range on its axis. -/
theorem mem_blk (t : Fin cfg0.N) (i : S16384x2048.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v11).slice (win0_4.rect t)).set ↔ _
  rw [View.set_slice_whole, Rect.mem_set_unit]
  exact Iff.rfl

/-- Every entry of the output array is in the block of the point its row belongs to. -/
theorem cover (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 64 := N_0
  have hlt : (i 0).val / 256 < cfg0.N := by rw [hN]; omega
  obtain ⟨-, -, -, -, -, -, -, -, e8, e9⟩ := idx_facts ⟨(i 0).val / 256, hlt⟩
  refine ⟨⟨(i 0).val / 256, hlt⟩, flush0_4 _, ?_⟩
  rw [mem_blk]
  intro a
  match a with
  | ⟨0, _⟩ =>
    show win0_4.index ⟨(i 0).val / 256, hlt⟩ (0 : Fin 2) * 256 ≤ (i 0).val
      ∧ (i 0).val < win0_4.index ⟨(i 0).val / 256, hlt⟩ (0 : Fin 2) * 256 + 256
    rw [e8]
    show (i 0).val / 256 * 256 ≤ (i 0).val ∧ (i 0).val < (i 0).val / 256 * 256 + 256
    omega
  | ⟨1, _⟩ =>
    show win0_4.index ⟨(i 0).val / 256, hlt⟩ (1 : Fin 2) * 2048 ≤ (i 1).val
      ∧ (i 1).val < win0_4.index ⟨(i 0).val / 256, hlt⟩ (1 : Fin 2) * 2048 + 2048
    rw [e9]
    omega

/-- THE OUTPUT ARRAY after the region: the rows form of the arrays the region finds. -/
theorem final (c : Dev nD) :
    (dats m 0 c).arrAt 4 cfg0.N = rowsResult (V m c main_v0) (V m c main_v10) (V m c main_v1) (V m c main_v2) :=
  (dats m 0 c).arrAt_eq_of_cover 4 _ (fun t _ => flushed_eq m c t) cover

end Cert.KernelIdeal.Blocks

end
-- ==== Proof.Layout.lean ====
/-
  The two reshapes around the region, read at an index.

  Before the region the 8 × 2048 × 2048 input is reshaped to 16384 × 2048 (batch and position merged: row
  2048·batch + position), and gain and bias from 2048 to 1 × 2048; after it the 16384 × 2048 output is reshaped back to
  8 × 2048 × 2048. A reshape keeps the row-major position, so entry (batch, position, o) of the final result is entry
  (2048·batch + position, o) of the region's output, whose input row is row (batch, position) of the input. Hence the
  rows form of the reshaped arrays, reshaped back, is the three-axis form of the arrays themselves.
-/
import proofs.«166564_j22050362097970_2_alg».proof.Proof.Spec
import Idealize.ShloMosaic.Lib.Pipeline.Value
import Idealize.ShloMosaic.Lib.ValueIdx
import Idealize.ShloMosaic.Lib.ValueLayout

noncomputable section

namespace Cert.NormedProduct

open Idealize.ShloMosaic Idealize.ShloMosaic.ValueIdx

/-- The rows form of the reshaped input, gain and bias, reshaped back to three axes, is the three-axis result. -/
theorem rows_reshaped (x : (⟨3, ![8, 2048, 2048]⟩ : Shape).Idx → EReal) (q : (⟨2, ![2048, 2048]⟩ : Shape).Idx → EReal)
    (g b : (⟨1, ![2048]⟩ : Shape).Idx → EReal)
    (hx : (⟨3, ![8, 2048, 2048]⟩ : Shape).ShapeCasts ⟨2, ![16384, 2048]⟩)
    (hv : (⟨1, ![2048]⟩ : Shape).ShapeCasts ⟨2, ![1, 2048]⟩)
    (ho : (⟨2, ![16384, 2048]⟩ : Shape).ShapeCasts ⟨3, ![8, 2048, 2048]⟩) :
    shapeCast ⟨3, ![8, 2048, 2048]⟩
        (rowsResult (shapeCast ⟨2, ![16384, 2048]⟩ x hx) q (shapeCast ⟨2, ![1, 2048]⟩ g hv) (shapeCast ⟨2, ![1, 2048]⟩ b hv)) ho
      = result x q g b := by
  funext i
  obtain ⟨bb, s, o, rfl⟩ : ∃ (bb : Fin 8) (s : Fin 2048) (o : Fin 2048), i = ix3 bb s o := ⟨i 0, i 1, i 2, eq_ix3 i⟩
  have hr : bb.val * 2048 + s.val < 16384 := by have := bb.isLt; have := s.isLt; omega
  refine (shapeCast_apply _ ho (ix3 bb s o) (ix2 (n0 := 16384) (n1 := 2048) ⟨bb.val * 2048 + s.val, hr⟩ o) (by
    rw [Shape.rowMajor_val_two, Shape.rowMajor_val_three]; rfl)).trans ?_
  unfold rowsResult result entry
  refine Finset.sum_congr rfl fun k _ => ?_
  refine congrArg₂ (· * ·) ?_ rfl
  have ex : ∀ k' : Fin 2048, shapeCast ⟨2, ![16384, 2048]⟩ x hx (ix2 (n0 := 16384) (n1 := 2048) ⟨bb.val * 2048 + s.val, hr⟩ k')
      = x (ix3 (n0 := 8) (n1 := 2048) (n2 := 2048) bb s k') := fun k' =>
    shapeCast_apply x hx _ _ (by rw [Shape.rowMajor_val_two, Shape.rowMajor_val_three]; rfl)
  have eg : ∀ k' : Fin 2048, shapeCast ⟨2, ![1, 2048]⟩ g hv (ix2 (0 : Fin 1) k') = g (ix1 k') := fun k' =>
    shapeCast_a_1a_apply g hv 0 k'
  have eb : ∀ k' : Fin 2048, shapeCast ⟨2, ![1, 2048]⟩ b hv (ix2 (0 : Fin 1) k') = b (ix1 k') := fun k' =>
    shapeCast_a_1a_apply b hv 0 k'
  show normed (fun k' => shapeCast ⟨2, ![16384, 2048]⟩ x hx (ix2 (n0 := 16384) (n1 := 2048) ⟨bb.val * 2048 + s.val, hr⟩ k'))
      (fun k' => shapeCast ⟨2, ![1, 2048]⟩ g hv (ix2 (0 : Fin 1) k')) (fun k' => shapeCast ⟨2, ![1, 2048]⟩ b hv (ix2 (0 : Fin 1) k')) k
    = normed (fun k' => x (ix3 (n0 := 8) (n1 := 2048) (n2 := 2048) bb s k')) (fun k' => g (ix1 k')) (fun k' => b (ix1 k')) k
  simp only [ex, eg, eb]

end Cert.NormedProduct

end
-- ==== Proof.KernelRun.lean ====
/-
  The kernel program's whole run, read as the specification.

  Before the region the host reshapes the input to 16384 × 2048 and the gain and bias to 1 × 2048, and computes the
  quantised matrix: W divided by the mean of |W|, rounded to the nearest integer (ties to even), clamped to [−1, 1], then
  cast to the narrower format (the identity on exact values). The region then writes the rows form of those arrays, and
  the host reshapes that back to 8 × 2048 × 2048. Composed, the program's result is the three-axis specification of the
  argument arrays with the quantised matrix in the matrix's place.

  The quantised matrix is named by the reference program's own stage for it: both programs apply the same operations to
  W, so the term is shared and never opened here.
-/
import proofs.«166564_j22050362097970_2_alg».proof.Proof.Blocks
import proofs.«166564_j22050362097970_2_alg».proof.Proof.Layout
import proofs.«166564_j22050362097970_2_alg».proof.Proof.Gen.ReferenceIdeal.Read
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Cert.NormedProduct

variable (m : (ℓ : Loc nD τ sig) → Buf (Elt Ideal) ℓ) (ρ : Dev nD → PrngReg)

/-- The quantised matrix: W over the mean of |W|, rounded half to even, clamped to [−1, 1]. -/
abbrev quantised (W : S2048x2048.Idx → EReal) : S2048x2048.Idx → EReal :=
  Cert.ReferenceIdeal.Read.val_main_v30 (F := Ideal) W

/-- The region finds the input reshaped to 16384 × 2048. -/
theorem V_rows (c : Dev nD) : (V m c main_v0 : S16384x2048.Idx → EReal)
    = shapeCast S16384x2048 (m ((c.tc : Thread nD τ).loc main_arg0)) shapeCasts_S8x2048x2048_S16384x2048 := by
  dsimp only [Gen.V, Gen.V0]
  simp only [hostOps0, hostOps0_1, hostOps0_2, hostOps0_3, hostOps0_4, List.flatten_cons, List.flatten_nil, List.append_nil,
    List.cons_append, List.nil_append]
  after_results
  rfl

/-- The region finds the gain reshaped to 1 × 2048. -/
theorem V_gain (c : Dev nD) : (V m c main_v1 : S1x2048.Idx → EReal)
    = shapeCast S1x2048 (m ((c.tc : Thread nD τ).loc main_arg2)) shapeCasts_S2048_S1x2048 := by
  dsimp only [Gen.V, Gen.V0]
  simp only [hostOps0, hostOps0_1, hostOps0_2, hostOps0_3, hostOps0_4, List.flatten_cons, List.flatten_nil, List.append_nil,
    List.cons_append, List.nil_append]
  after_results
  rfl

/-- The region finds the bias reshaped to 1 × 2048. -/
theorem V_bias (c : Dev nD) : (V m c main_v2 : S1x2048.Idx → EReal)
    = shapeCast S1x2048 (m ((c.tc : Thread nD τ).loc main_arg3)) shapeCasts_S2048_S1x2048 := by
  dsimp only [Gen.V, Gen.V0]
  simp only [hostOps0, hostOps0_1, hostOps0_2, hostOps0_3, hostOps0_4, List.flatten_cons, List.flatten_nil, List.append_nil,
    List.cons_append, List.nil_append]
  after_results
  rfl

/-- The region finds the quantised matrix. -/
theorem V_matrix (c : Dev nD) : (V m c main_v10 : S2048x2048.Idx → EReal)
    = quantised (m ((c.tc : Thread nD τ).loc main_arg1)) := by
  dsimp only [Gen.V, Gen.V0]
  simp only [hostOps0, hostOps0_1, hostOps0_2, hostOps0_3, hostOps0_4, List.flatten_cons, List.flatten_nil, List.append_nil,
    List.cons_append, List.nil_append]
  after_results
  rfl

/-- After the region the host reshapes the region's output array back to three axes. -/
theorem tail_reshape (c : Dev nD) :
    (Pipeline.afterTail₀ cfgs (dats m) 0 (V0 m) [hostOps1] c main_v12 : S8x2048x2048.Idx → EReal)
      = shapeCast S8x2048x2048 ((dats m 0 c).arrAt 4 cfg0.N : S16384x2048.Idx → EReal) shapeCasts_S16384x2048_S8x2048x2048 := by
  have hw : Pipeline.withArrays (cfgs 0).spec c (V0 m c) (fun w => (dats m 0 c).arrAt w (cfgs 0).N) (Proc.devRef .tc main_v11)
      = (dats m 0 c).arrAt 4 cfg0.N :=
    Pipeline.withArrays_arr spec0 launch0.win.arr_inj c _ _ 4
  unfold Pipeline.afterTail₀
  show StableHlo.after hostOps1 _ (Proc.devRef .tc main_v12) = _
  after_results
  rw [hw]
  rfl

/-- THE PROGRAM'S RESULT: the three-axis specification of the arguments, the quantised matrix in the matrix's place. -/
theorem result_eq (c : Dev nD) :
    (Pipeline.afterTail₀ cfgs (dats m) 0 (V0 m) [hostOps1] c main_v12 : S8x2048x2048.Idx → EReal)
      = result (m ((c.tc : Thread nD τ).loc main_arg0)) (quantised (m ((c.tc : Thread nD τ).loc main_arg1)))
          (m ((c.tc : Thread nD τ).loc main_arg2)) (m ((c.tc : Thread nD τ).loc main_arg3)) := by
  rw [tail_reshape, Cert.KernelIdeal.Blocks.final, V_rows, V_gain, V_bias, V_matrix]
  exact rows_reshaped _ _ _ _ _ _ _

/-- The frame run re-posted: the result at the specification, the arguments unchanged. -/
theorem run : θ_run defs (onTc (τ := τ) (main (F := Ideal))) ⟨m, fun _ => 0, ρ⟩ fun r => ∀ c : Dev nD,
      r.2.mem ((c.tc : Thread nD τ).loc main_v12)
        = result (m ((c.tc : Thread nD τ).loc main_arg0)) (quantised (m ((c.tc : Thread nD τ).loc main_arg1)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference program's result, read as the specification.

  The reference normalises each row of the 8 × 2048 × 2048 input on the host (the same mean, centring, variance, ε and
  reciprocal square root, gain and bias, with the row statistics kept as a trailing axis of extent one and broadcast back
  along the row), quantises W as the kernel program does, replaces the quantised matrix Q by (Q − W) + W, and contracts the
  normalised input's last axis with the matrix's first. Read at (batch, position, o): the sum over k of the normalised
  row's entry k times the matrix entry (k, o) — the specification, once (Q − W) + W is Q. That holds entry by entry
  because W's entries are real numbers and Q's lie between −1 and 1.
-/
import proofs.«166564_j22050362097970_2_alg».proof.Proof.Gen.ReferenceIdeal.Read
import proofs.«166564_j22050362097970_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.NormedProduct

/-! ## Where the composed broadcasts and reductions read their operands -/

theorem row_of_sum (bb : Fin 8) (s : Fin 2048) (u : Fin 1) (k : Fin 2048) :
    idx_main_v0 (idx_main_v1 (ix3 bb s u)) k = ix3 bb s k :=
  funext fun a => by match a with | ⟨0, _⟩ => rfl | ⟨1, _⟩ => rfl | ⟨2, _⟩ => rfl

theorem row_of_sqsum (bb : Fin 8) (s : Fin 2048) (u : Fin 1) (k : Fin 2048) :
    idx_main_v7 (idx_main_v8 (ix3 bb s u)) k = ix3 bb s k :=
  funext fun a => by match a with | ⟨0, _⟩ => rfl | ⟨1, _⟩ => rfl | ⟨2, _⟩ => rfl

theorem stat_of_v4 (bb : Fin 8) (s : Fin 2048) (k : Fin 2048) : idx_main_v4 (ix3 bb s k) = ix3 bb s (0 : Fin 1) :=
  funext fun a => by match a with | ⟨0, _⟩ => rfl | ⟨1, _⟩ => rfl | ⟨2, _⟩ => rfl

theorem stat_of_v11 (bb : Fin 8) (s : Fin 2048) (k : Fin 2048) : idx_main_v11 (ix3 bb s k) = ix3 bb s (0 : Fin 1) :=
  funext fun a => by match a with | ⟨0, _⟩ => rfl | ⟨1, _⟩ => rfl | ⟨2, _⟩ => rfl

theorem stat_of_v16 (bb : Fin 8) (s : Fin 2048) (k : Fin 2048) : idx_main_v16 (ix3 bb s k) = ix3 bb s (0 : Fin 1) :=
  funext fun a => by match a with | ⟨0, _⟩ => rfl | ⟨1, _⟩ => rfl | ⟨2, _⟩ => rfl

theorem gain_of_v19 (bb : Fin 8) (s : Fin 2048) (k : Fin 2048) : idx_main_v18 (idx_main_v19 (ix3 bb s k)) = ix1 k :=
  funext fun a => by match a with | ⟨0, _⟩ => rfl

theorem bias_of_v22 (bb : Fin 8) (s : Fin 2048) (k : Fin 2048) : idx_main_v21 (idx_main_v22 (ix3 bb s k)) = ix1 k :=
  funext fun a => by match a with | ⟨0, _⟩ => rfl

/-! ## The normalised input -/

/-- The kept-axis column of row means. -/
theorem mean_apply (x : (⟨S8x2048x2048, .f32⟩ : BufTy).Contents (Elt Ideal)) (bb : Fin 8) (s : Fin 2048) (u : Fin 1) :
    val_main_v3 (F := Ideal) x (ix3 bb s u) = mean (fun k => x (ix3 bb s k)) := by
  rw [val_main_v3_apply, val_main_v1_apply, val_main_v0_apply, val_main_v2_apply, val_main_cst_0_apply, val_main_cst_apply]
  simp only [Ideal.hostDivf_def, Ideal.ofBits_def, Ideal.ofBits_zero_f32, zero_add, row_of_sum]
  rfl

/-- The centred input (its first use, under the square). -/
theorem centred_apply (x : (⟨S8x2048x2048, .f32⟩ : BufTy).Contents (Elt Ideal)) (bb : Fin 8) (s : Fin 2048) (k : Fin 2048) :
    val_main_v5 (F := Ideal) x (ix3 bb s k) = centred (fun k' => x (ix3 bb s k')) k := by
  rw [val_main_v5_apply, val_main_v4_apply, stat_of_v4, mean_apply]
  rfl

/-- The centred input (its second use, under the scaling). -/
theorem centred_apply' (x : (⟨S8x2048x2048, .f32⟩ : BufTy).Contents (Elt Ideal)) (bb : Fin 8) (s : Fin 2048) (k : Fin 2048) :
    val_main_v12 (F := Ideal) x (ix3 bb s k) = centred (fun k' => x (ix3 bb s k')) k := by
  rw [val_main_v12_apply, val_main_v11_apply, stat_of_v11, mean_apply]
  rfl

/-- The kept-axis column of reciprocal standard deviations. -/
theorem invStd_apply (x : (⟨S8x2048x2048, .f32⟩ : BufTy).Contents (Elt Ideal)) (bb : Fin 8) (s : Fin 2048) (u : Fin 1) :
    val_main_v15 (F := Ideal) x (ix3 bb s u) = invStd (fun k => x (ix3 bb s k)) := by
  rw [val_main_v15_apply, val_main_v14_apply, val_main_v10_apply, val_main_v8_apply, val_main_v7_apply, val_main_v9_apply,
    val_main_cst_2_apply, val_main_v13_apply, val_main_cst_3_apply, val_main_cst_1_apply]
  simp only [row_of_sqsum, val_main_v6_apply, centred_apply, Ideal.hostDivf_def, Ideal.hostUnary_rsqrt_def, Ideal.ofBits_def,
    Ideal.ofBits_zero_f32, zero_add, Ideal.addf_def, Ideal.mulf_def]
  rfl

/-- The normalised input with gain and bias applied. -/
theorem normed_apply (x : (⟨S8x2048x2048, .f32⟩ : BufTy).Contents (Elt Ideal)) (g b : (⟨S2048, .f32⟩ : BufTy).Contents (Elt Ideal))
    (bb : Fin 8) (s : Fin 2048) (k : Fin 2048) :
    val_main_v23 (F := Ideal) x g b (ix3 bb s k)
      = normed (fun k' => x (ix3 bb s k')) (fun k' => g (ix1 k')) (fun k' => b (ix1 k')) k := by
  rw [val_main_v23_apply, val_main_v20_apply, val_main_v17_apply, centred_apply', val_main_v16_apply, stat_of_v16, invStd_apply,
    val_main_v19_apply, val_main_v18_apply, gain_of_v19, val_main_v22_apply, val_main_v21_apply, bias_of_v22]
  rfl

/-! ## The matrix -/

/-- The quantised matrix is a clamp between −1 and 1. -/
theorem clamp_apply (W : (⟨S2048x2048, .f32⟩ : BufTy).Contents (Elt Ideal)) (i : S2048x2048.Idx) :
    val_main_v30 (F := Ideal) W i
      = min (Ideal.ofBits .f32 0x3F800000#32) (max (Ideal.ofBits .f32 0xBF800000#32) (val_main_v29 (F := Ideal) W i)) := by
  rw [val_main_v30_apply, val_main_call1_v4_apply, val_main_call1_v3_apply, val_main_cst_7_apply, val_main_call1_v2_apply,
    val_main_call1_v1_apply, val_main_call1_v0_apply, val_main_cst_6_apply]
  rfl

/-- Where W is a real number, the straight-through estimator (Q − W) + W is the quantised entry Q. -/
theorem ste_apply (W : (⟨S2048x2048, .f32⟩ : BufTy).Contents (Elt Ideal)) (i : S2048x2048.Idx) (hW : ∃ v : ℝ, W i = (v : EReal)) :
    val_main_v32 (F := Ideal) W i = val_main_v30 (F := Ideal) W i := by
  rw [val_main_v32_apply, val_main_v31_apply, clamp_apply]
  exact clamp_sub_add _ _ hW

/-! ## The result -/

/-- THE REFERENCE'S RESULT: the three-axis specification of the arguments, the quantised matrix in the matrix's place. -/
theorem result_eq (x : (⟨S8x2048x2048, .f32⟩ : BufTy).Contents (Elt Ideal)) (W : (⟨S2048x2048, .f32⟩ : BufTy).Contents (Elt Ideal))
    (g b : (⟨S2048, .f32⟩ : BufTy).Contents (Elt Ideal)) (hW : ∀ i : S2048x2048.Idx, ∃ v : ℝ, W i = (v : EReal)) :
    val_main_v33 (F := Ideal) x W g b = result x (val_main_v30 (F := Ideal) W) g b := by
  funext i
  obtain ⟨bb, s, o, rfl⟩ : ∃ (bb : Fin 8) (s : Fin 2048) (o : Fin 2048), i = ix3 bb s o := ⟨i 0, i 1, i 2, eq_ix3 i⟩
  rw [val_main_v33_apply]
  unfold result entry
  refine Finset.sum_congr rfl fun k _ => ?_
  have el : lidx_main_v33 (ix3 bb s o) k = ix3 bb s k :=
    funext fun a => by match a with | ⟨0, _⟩ => rfl | ⟨1, _⟩ => rfl | ⟨2, _⟩ => rfl
  have er : ridx_main_v33 (ix3 bb s o) k = ix2 k o :=
    funext fun a => by match a with | ⟨0, _⟩ => rfl | ⟨1, _⟩ => rfl
  rw [el, er, normed_apply, ste_apply W _ (hW _)]

end Cert.ReferenceIdeal.RefValue

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.Finite.lean ====
/-
  What the precondition gives: the matrix W has real entries.

  The precondition is the conjunction of four tests, one per argument array: every entry's absolute value compares strictly
  below +∞. The conjunction being true makes each test true; the test of W is an "and" over all entries, so it holds at each
  entry; and an extended real whose absolute value is strictly below +∞ is a real number.
-/
import proofs.«166564_j22050362097970_2_alg».proof.Proof.Gen.Pre_finite_inputs
import proofs.«166564_j22050362097970_2_alg».proof.Proof.LibERealFinite
import Idealize.ShloMosaic.PureOps.Ideal
import Idealize.ShloMosaic.Lib.ReduceAll
import Idealize.ShloMosaic.Lib.ValueIdx
import Idealize.ShloMosaic.Lib.Affine

noncomputable section

namespace Cert.Pre_finite_inputs.Finite

open Cert.Pre_finite_inputs Idealize.ShloMosaic

/-- A rank-zero array has one index. -/
instance scalarIdx_subsingleton : Subsingleton S_.Idx := ⟨fun a b => funext fun d => d.elim0⟩

/-- Under the precondition every entry of the second argument (the matrix W) is a real number. -/
theorem matrix_real (x : FVec Ideal S8x2048x2048 .f32) (W : FVec Ideal S2048x2048 .f32) (g b : FVec Ideal S2048 .f32)
    (h : fn (F := Ideal) x W g b = fun _ => 1#1) (i : S2048x2048.Idx) : ∃ v : ℝ, W i = (v : EReal) := by
  have h0 := congrFun h ValueIdx.ix0
  dsimp only [fn, fn_part1] at h0
  have h1 := (IntOp.andi_eq_one.mp h0).1
  have h2 := (IntOp.andi_eq_one.mp h1).1
  have h3 := (IntOp.andi_eq_one.mp h2).2
  have h4 := Host.reduce_andi_all _ _ _ _ _ h3 i
  exact Cert.LibERealFinite.real_of_abs_lt (W i) h4

end Cert.Pre_finite_inputs.Finite

end
-- ==== Proof.lean ====
/-
  The kernel program and its reference compute one function of their four arguments.

  Both normalise each row of the 8 × 2048 × 2048 input x (mean and biased variance along the last axis, ε inside the
  reciprocal square root, then gain and bias), quantise the matrix W to Q = clamp(round(W / mean|W|), −1, 1), and multiply
  the normalised rows by Q. The kernel program does the normalisation and the product inside a pipelined region, 256 rows
  per grid point over a 16384 × 2048 reshaping of x, and reshapes the result back; the reference does everything on whole
  arrays and uses (Q − W) + W in Q's place. On the extended reals the two results agree entry by entry: a changed tiling
  and a reshape there and back do not change which entries are summed, narrowing a format is the identity on exact values,
  and (Q − W) + W = Q because the precondition makes W's entries real and Q lies in [−1, 1].

  The three frames are the generated ones (the reference's is its generated run with the result dropped); nothing was
  rewritten between the kernel program and its idealisation, so that conjunct is trivial.
-/
import proofs.«166564_j22050362097970_2_alg».proof.Defs
import proofs.«166564_j22050362097970_2_alg».proof.Proof.Gen.Kernel
import proofs.«166564_j22050362097970_2_alg».proof.Proof.Gen.Kernel.Skeleton
import proofs.«166564_j22050362097970_2_alg».proof.Proof.Gen.Kernel.Launch
import proofs.«166564_j22050362097970_2_alg».proof.Proof.Gen.Kernel.Points
import proofs.«166564_j22050362097970_2_alg».proof.Proof.Gen.Kernel.Frame
import proofs.«166564_j22050362097970_2_alg».proof.Proof.Gen.KernelIdeal
import proofs.«166564_j22050362097970_2_alg».proof.Proof.Gen.KernelIdeal.Skeleton
import proofs.«166564_j22050362097970_2_alg».proof.Proof.Gen.KernelIdeal.Launch
import proofs.«166564_j22050362097970_2_alg».proof.Proof.Gen.KernelIdeal.Points
import proofs.«166564_j22050362097970_2_alg».proof.Proof.Gen.KernelIdeal.Frame
import proofs.«166564_j22050362097970_2_alg».proof.Proof.Gen.ReferenceIdeal
import proofs.«166564_j22050362097970_2_alg».proof.Proof.Gen.ReferenceIdeal.Run
import proofs.«166564_j22050362097970_2_alg».proof.Proof.Gen.ReferenceIdeal.Read
import proofs.«166564_j22050362097970_2_alg».proof.Proof.Gen.Pre_finite_inputs
import proofs.«166564_j22050362097970_2_alg».proof.Proof.KernelRun
import proofs.«166564_j22050362097970_2_alg».proof.Proof.RefValue
import proofs.«166564_j22050362097970_2_alg».proof.Proof.Finite
import Idealize.ShloMosaic.Adequacy
import Idealize.ShloMosaic.Init

noncomputable section

namespace Cert.Proof

open Idealize.ShloMosaic Idealize.SL.Sem Cert.Kernel

/-- The word-level kernel program runs, faultless, and leaves its arguments unchanged. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, both idealised programs end with the specification's array: the kernel program
    by its run read through the region and the reshapes, the reference by its run read stage by stage, where the
    straight-through estimator cancels because the precondition makes the matrix's entries real. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2]
  exact Cert.ReferenceIdeal.RefValue.result_eq _ _ _ _
    (fun i => Cert.Pre_finite_inputs.Finite.matrix_real _ _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
